-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S3200000 : Shape := ⟨1, ![3200000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S3200000 : S_.BroadcastsInDim S3200000 (![] : Fin 0 → Fin S3200000.rank)
  reducesTo_S3200000_S_d0 : S3200000.ReducesTo [0] S_

variable [Facts]

def fn_part1 {F : FTy → Type} [FloatOps F] (main_arg4 : FVec F S1 .f32) (main_arg5 : FVec F S3200000 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S3200000 .f32 := Host.absf main_arg5
  let main_cst_8 : FVec F S_ .f32 := constant S_ .f32 0x7F800000#32
  let main_v25 : FVec F S3200000 .f32 := broadcastInDim S3200000 ![] bcast_S_S3200000 main_cst_8
  let main_v26 : IVec S3200000 1 := cmpf .olt main_v24 main_v25
  let main_c_9 : IVec S_ 1 := constantI S_ 1 1#1
  let main_v27 : IVec S_ 1 := (fun x v => Host.reduce IntOp.andi x v reducesTo_S3200000_S_d0 h_S_) main_v26 main_c_9
  let main_v28 : IVec S_ 1 := andi main_v23 main_v27
  main_v28

def fn {F : FTy → Type} [FloatOps F] (main_arg0 : FVec F S100000x256 .f32) (main_arg1 : FVec F S256x64 .f32) (main_arg2 : FVec F S64 .f32) (main_arg3 : FVec F S64x1 .f32) (main_arg4 : FVec F S1 .f32) (main_arg5 : FVec F S3200000 .f32) (main_arg6 : IVec S3200000 32) (main_arg7 : IVec S3200000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_arg5 main_v13 main_v16
-- ==== Kernel.lean ====
abbrev S100000x256 : Shape := ⟨2, ![100000, 256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S3200000 : Shape := ⟨1, ![3200000]⟩
abbrev S1x64 : Shape := ⟨2, ![1, 64]⟩
abbrev S100000x64 : Shape := ⟨2, ![100000, 64]⟩
abbrev S5000x256 : Shape := ⟨2, ![5000, 256]⟩
abbrev S5000x64 : Shape := ⟨2, ![5000, 64]⟩
abbrev S3200000x1 : Shape := ⟨2, ![3200000, 1]⟩
abbrev S_ : Shape := ⟨0, ![]⟩
abbrev S3200000x64 : Shape := ⟨2, ![3200000, 64]⟩
abbrev S1x1 : Shape := ⟨2, ![1, 1]⟩
abbrev S100000x1 : Shape := ⟨2, ![100000, 1]⟩
abbrev S5000x1 : Shape := ⟨2, ![5000, 1]⟩
abbrev S100000 : Shape := ⟨1, ![100000]⟩

abbrev nBuf : Space → Nat
  | .hbm => 44
  | .vmem => 12
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S3200000, .f32⟩
  | .hbm, ⟨6, _⟩ => ⟨S3200000, .i32⟩
  | .hbm, ⟨7, _⟩ => ⟨S3200000, .i32⟩
  | .hbm, ⟨8, _⟩ => ⟨S1x64, .f32⟩
  | .hbm, ⟨9, _⟩ => ⟨S100000x64, .f32⟩
  | .hbm, ⟨10, _⟩ => ⟨S3200000x1, .f32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000x64, .f32⟩
  | .hbm, ⟨20, _⟩ => ⟨S3200000x64, .f32⟩
  | .hbm, ⟨21, _⟩ => ⟨S3200000x64, .f32⟩
  | .hbm, ⟨22, _⟩ => ⟨S_, .f32⟩
  | .hbm, ⟨23, _⟩ => ⟨S100000x64, .f32⟩
  | .hbm, ⟨24, _⟩ => ⟨S3200000x1, .i32⟩
  | .hbm, ⟨25, _⟩ => ⟨S100000x64, .f32⟩
  | .hbm, ⟨26, _⟩ => ⟨S1x1, .f32⟩
  | .hbm, ⟨27, _⟩ => ⟨S100000x1, .f32⟩
  | .hbm, ⟨28, _⟩ => ⟨S3200000x1, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000x1, .f32⟩
  | .hbm, ⟨38, _⟩ => ⟨S3200000x1, .f32⟩
  | .hbm, ⟨39, _⟩ => ⟨S_, .f32⟩
  | .hbm, ⟨40, _⟩ => ⟨S100000x1, .f32⟩
  | .hbm, ⟨41, _⟩ => ⟨S3200000x1, .i32⟩
  | .hbm, ⟨42, _⟩ => ⟨S100000x1, .f32⟩
  | .hbm, ⟨43, _⟩ => ⟨S100000, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x1, .f32⟩
  | .local _ .vmem, ⟨9, _⟩ => ⟨S1x1, .f32⟩
  | .local _ .vmem, ⟨10, _⟩ => ⟨S5000x1, .f32⟩
  | .local _ .vmem, ⟨11, _⟩ => ⟨S5000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S64_S1x64 : S64.ShapeCasts S1x64
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S1_S1x1 : S1.ShapeCasts S1x1
  shapeCasts_S5000x64_S5000x64 : S5000x64.ShapeCasts S5000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  bcast_S_S100000x1 : S_.BroadcastsInDim S100000x1 (![] : Fin 0 → Fin S100000x1.rank)
  shapeCasts_S100000x1_S100000 : S100000x1.ShapeCasts S100000
  dot_S5000x256_S256x64_S5000x64_1_0_0_1_n_n_wf : DotDims.WF S5000x256 S256x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x1_S5000x1_1_0_0_1_n_n_wf : DotDims.WF S5000x64 S64x1 S5000x1 [1] [0] [0] [1] [] []
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1.size a ≤ S64x1.size a
  hwx1_1 : ∀ i : grid1.Coords, EltTy.bits .f32 = 32 ∨ (Rect.block (s := S64x1) S64x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S5000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S3200000 : Shape := ⟨1, ![3200000]⟩
abbrev S100000x64 : Shape := ⟨2, ![100000, 64]⟩
abbrev S1x64 : Shape := ⟨2, ![1, 64]⟩
abbrev S3200000x1 : Shape := ⟨2, ![3200000, 1]⟩
abbrev S_ : Shape := ⟨0, ![]⟩
abbrev S3200000x64 : Shape := ⟨2, ![3200000, 64]⟩
abbrev S100000x1 : Shape := ⟨2, ![100000, 1]⟩
abbrev S1x1 : Shape := ⟨2, ![1, 1]⟩
abbrev S100000 : Shape := ⟨1, ![100000]⟩

abbrev nBuf : Space → Nat
  | .hbm => 51
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S3200000, .f32⟩
  | .hbm, ⟨6, _⟩ => ⟨S3200000, .i32⟩
  | .hbm, ⟨7, _⟩ => ⟨S3200000, .i32⟩
  | .hbm, ⟨8, _⟩ => ⟨S100000x64, .f32⟩
  | .hbm, ⟨9, _⟩ => ⟨S1x64, .f32⟩
  | .hbm, ⟨10, _⟩ => ⟨S100000x64, .f32⟩
  | .hbm, ⟨11, _⟩ => ⟨S100000x64, .f32⟩
  | .hbm, ⟨12, _⟩ => ⟨S3200000x1, .f32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x64, .f32⟩
  | .hbm, ⟨22, _⟩ => ⟨S3200000x64, .f32⟩
  | .hbm, ⟨23, _⟩ => ⟨S3200000x64, .f32⟩
  | .hbm, ⟨24, _⟩ => ⟨S_, .f32⟩
  | .hbm, ⟨25, _⟩ => ⟨S100000x64, .f32⟩
  | .hbm, ⟨26, _⟩ => ⟨S3200000x1, .i32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S100000x1, .f32⟩
  | .hbm, ⟨32, _⟩ => ⟨S1x1, .f32⟩
  | .hbm, ⟨33, _⟩ => ⟨S100000x1, .f32⟩
  | .hbm, ⟨34, _⟩ => ⟨S100000x1, .f32⟩
  | .hbm, ⟨35, _⟩ => ⟨S3200000x1, .f32⟩
  | .hbm, ⟨36, _⟩ => ⟨S_, .i32⟩
  | .hbm, ⟨37, _⟩ => ⟨S3200000, .i32⟩
  | .hbm, ⟨38, _⟩ => ⟨S3200000, .i1⟩
  | .hbm, ⟨39, _⟩ => ⟨S_, .i32⟩
  | .hbm, ⟨40, _⟩ => ⟨S3200000, .i32⟩
  | .hbm, ⟨41, _⟩ => ⟨S3200000, .i32⟩
  | .hbm, ⟨42, _⟩ => ⟨S3200000, .i32⟩
  | .hbm, ⟨43, _⟩ => ⟨S3200000x1, .i32⟩
  | .hbm, ⟨44, _⟩ => ⟨S3200000x1, .f32⟩
  | .hbm, ⟨45, _⟩ => ⟨S3200000x1, .f32⟩
  | .hbm, ⟨46, _⟩ => ⟨S_, .f32⟩
  | .hbm, ⟨47, _⟩ => ⟨S100000x1, .f32⟩
  | .hbm, ⟨48, _⟩ => ⟨S3200000x1, .i32⟩
  | .hbm, ⟨49, _⟩ => ⟨S100000x1, .f32⟩
  | .hbm, ⟨50, _⟩ => ⟨S100000, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  shapeCasts_S100000x1_S100000 : S100000x1.ShapeCasts S100000
  dot_S100000x256_S256x64_S100000x64_1_0_0_1_n_n_wf : DotDims.WF S100000x256 S256x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x1_S100000x1_1_0_0_1_n_n_wf : DotDims.WF S100000x64 S64x1 S100000x1 [1] [0] [0] [1] [] []
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

class Facts : Prop extends Facts₀ where

variable [Facts]
-- ==== Proof.WholeRun.lean ====
/-
  The whole program's run, with the contents of EVERY buffer named.

  The program is five stretches: host operations, the first kernel's launch over its grid, host operations, the second
  kernel's launch, host operations. The contents of a core's buffers at the boundaries between the stretches are a
  fold from the launch memory: a host stretch applies its operations in order, a launch replaces its result array by
  what its write-backs leave and keeps every other buffer. The last stage of that fold is `W5`. Every weakly fair
  execution from a memory with zero counters terminates without a fault, and in its final memory every buffer that
  lives across the stretches holds `W5`'s contents — so any statement about the final memory that follows from the
  fold's last stage holds of the run.
-/
import proofs.«165099_j84378927497741_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution terminates, and whatever follows from "each core's buffers end at the fold's last stage" holds of
    the final memory. -/
theorem run_of {Q : PUnit × MemSt nD τ sig (Elt F) → Prop}
    (hQ : ∀ s : MemSt nD τ sig (Elt F),
      (∀ c : Dev nD, ∀ b ∈ Pipeline.ucRefs τ sig, s.mem (((c : Thread nD τ)).1, b) = W5 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := hQ)

/-- The run with the result array named: it ends at the fold's last stage read at the result's buffer, and the eight
    argument arrays end as launched. -/
theorem run : θ_run defs (onTc (τ := τ) (main (F := F))) ⟨m, fun _ => 0, ρ⟩ (fun r => ∀ c : Dev nD,
      r.2.mem ((c.tc : Thread nD τ).loc main_v29) = W5 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_of m ρ fun s h c =>
    ⟨h c _ (mem_uc main_v29 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c)⟩

end Cert.KernelIdeal.Whole

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibDenseLayer.lean ====
/-
  A dense layer on the extended reals. For `x : [M, K]`, `w : [K, N]` and a bias `b` per column, the entry `(p, q)`
  of `x · w + b` is `(∑ k, x (p, k) · w (k, q)) + b q`: row `p` of `x` against column `q` of `w`. `denseClamp` is the same
  layer applied to `max x z`, the entries of `x` clamped below at `z` (a rectifier when `z` is zero).

  An entry of the layer depends on ONE row of `x` only. So a block of consecutive rows of the layer's output is the layer
  applied to that block of rows of `x` (`denseAt_rows`): computing the layer block of rows by block of rows, in any
  order, gives the layer.
-/
import Idealize.ShloMosaic.Lib.ValueIdx

noncomputable section

open scoped BigOperators

namespace Cert.DenseLayer

open Idealize.ShloMosaic Idealize.ShloMosaic.ValueIdx

/-- Entry `(p, q)` of `x · w + b`. -/
def denseAt {M K N : ℕ} (x : (⟨2, ![M, K]⟩ : Shape).Idx → EReal) (w : (⟨2, ![K, N]⟩ : Shape).Idx → EReal) (b : Fin N → EReal)
    (p : Fin M) (q : Fin N) : EReal :=
  (∑ k : Fin K, x (ix2 p k) * w (ix2 k q)) + b q

/-- The array `x · w + b`. -/
def dense {M K N : ℕ} (x : (⟨2, ![M, K]⟩ : Shape).Idx → EReal) (w : (⟨2, ![K, N]⟩ : Shape).Idx → EReal) (b : Fin N → EReal) :
    (⟨2, ![M, N]⟩ : Shape).Idx → EReal :=
  fun i => denseAt x w b (i 0) (i 1)

theorem dense_ix2 {M K N : ℕ} (x : (⟨2, ![M, K]⟩ : Shape).Idx → EReal) (w : (⟨2, ![K, N]⟩ : Shape).Idx → EReal) (b : Fin N → EReal)
    (p : Fin M) (q : Fin N) : dense x w b (ix2 p q) = denseAt x w b p q := rfl

/-- The array `max x z · w + b`. -/
def denseClamp {M K N : ℕ} (z : EReal) (x : (⟨2, ![M, K]⟩ : Shape).Idx → EReal) (w : (⟨2, ![K, N]⟩ : Shape).Idx → EReal)
    (b : Fin N → EReal) : (⟨2, ![M, N]⟩ : Shape).Idx → EReal :=
  dense (fun i => max (x i) z) w b

/-- Row `p` of the layer on a block of rows is row `P` of the layer on the whole array, when row `p` of the block is
    row `P` of the array. -/
theorem denseAt_rows {M m K N : ℕ} (x : (⟨2, ![M, K]⟩ : Shape).Idx → EReal) (xb : (⟨2, ![m, K]⟩ : Shape).Idx → EReal)
    (w : (⟨2, ![K, N]⟩ : Shape).Idx → EReal) (b : Fin N → EReal) (p : Fin m) (P : Fin M) (q : Fin N)
    (h : ∀ k : Fin K, xb (ix2 p k) = x (ix2 P k)) : denseAt xb w b p q = denseAt x w b P q := by
  unfold denseAt
  exact congrArg (· + b q) (Finset.sum_congr rfl fun k _ => by rw [h k])

end Cert.DenseLayer

end
-- ==== Proof.BodyValues.lean ====
/-
  What the two kernel bodies store, read at an entry, on the extended reals.

  The first body takes a block `x` of 5000 rows of the node features, the weights `w : [256, 64]` and the bias as one row
  `b : [1, 64]`, and stores `x · w + b` (the change of float format before the product is the identity here, and the
  product accumulates into the zero matrix). The second takes a block `s` of 5000 rows of the aggregated features,
  `w : [64, 1]` and `b : [1, 1]`, and stores `max s 0 · w + b`. Both are the dense layer of LibDenseLayer.lean on the block.
-/
import proofs.«165099_j84378927497741_2_alg».proof.Proof.Gen.KernelIdeal.Skeleton
import proofs.«165099_j84378927497741_2_alg».proof.Proof.LibPlainMatmul
import proofs.«165099_j84378927497741_2_alg».proof.Proof.LibDenseLayer
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx Cert.DenseLayer Cert.LibPlainMatmul

/-- The value both programs clamp at: the float zero. -/
abbrev zeroF : EReal := Ideal.ofBits .f32 0x00000000#32

/-- The first body's stored value at `(p, q)`: row `p` of the block against column `q` of the weights, plus the bias at `q`. -/
theorem lin1_at (x : Vec Ideal S5000x256 .f32) (w : Vec Ideal S256x64 .f32) (b : Vec Ideal S1x64 .f32) (p : Fin 5000) (q : Fin 64) :
    k0_pay1 (F := Ideal) x w b (ix2 p q) = denseAt x w (fun n => b (ix2 (0 : Fin 1) n)) p q := by
  unfold k0_pay1 denseAt
  refine congrArg₂ (· + ·) ?_ ?_
  · exact matmul_plain_zero_apply _ rfl none _ _ p q
  · exact (broadcastTo_1b_ab_apply _ _ p q).trans (by rw [shapeCast_self])

/-- The second body's stored value at `(p, q)`: row `p` of the block, clamped below at zero, against the one column of the
    weights, plus the bias. -/
theorem lin2_at (s : Vec Ideal S5000x64 .f32) (w : Vec Ideal S64x1 .f32) (b : Vec Ideal S1x1 .f32) (p : Fin 5000) (q : Fin 1) :
    k1_pay1 (F := Ideal) s w b (ix2 p q) = denseAt (fun i => max (s i) zeroF) w (fun n => b (ix2 (0 : Fin 1) n)) p q := by
  unfold k1_pay1 denseAt
  refine congrArg₂ (· + ·) ?_ ?_
  · refine (matmul_plain_zero_apply _ rfl none _ _ p q).trans ?_
    refine Finset.sum_congr rfl fun k _ => ?_
    rw [shapeCast_self]
    rfl
  · exact (broadcastTo_1b_ab_apply _ _ p q).trans (by rw [shapeCast_self])

end Cert.KernelIdeal.Body

end
-- ==== Proof.RowBlocks0.lean ====
/-
  The first kernel's result array, whole.

  The first launch walks a grid of 20 points. At point `t` it reads rows `5000 t … 5000 t + 4999` of the node
  features (all 256 columns), the whole weight matrix and the whole bias row, and writes the dense layer of that block
  of rows to rows `5000 t … 5000 t + 4999` of its result. An entry of the dense layer depends on one row of the
  features only, so what each point writes is its block of rows of ONE array — the dense layer of the whole feature
  array — and the 20 blocks of 5000 rows cover the 100000 rows. Hence the result array ends holding that layer.

  Everything is stated at the contents `V` the launch finds in its arrays, whatever they are.
-/
import proofs.«165099_j84378927497741_2_alg».proof.Proof.Gen.KernelIdeal.Frame
import proofs.«165099_j84378927497741_2_alg».proof.Proof.BodyValues
import Idealize.ShloMosaic.Lib.Pipeline.Value

noncomputable section

namespace Cert.KernelIdeal.Rows0

open Cert.KernelIdeal Cert.KernelIdeal.Gen Cert.KernelIdeal.Body Cert.DenseLayer
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The dense layer of the arrays the launch finds: features · weights + bias row. -/
def layer (c : Dev nD) : S100000x64.Idx → EReal :=
  dense (V c main_arg0 : S100000x256.Idx → EReal) (V c main_arg1 : S256x64.Idx → EReal)
    (fun n => (V c main_v0 : S1x64.Idx → EReal) (ix2 (0 : Fin 1) n))

/-- What a point stores at `(p, q)` of its block is the layer at `(P, q)`, when row `p` of the block of features it
    loaded is row `P` of the feature array and the other two blocks are the whole weight and bias arrays. -/
theorem stored_eq (A0 : S100000x256.Idx → EReal) (A1 : S256x64.Idx → EReal) (A2 : S1x64.Idx → EReal)
    (x0 : Vec Ideal S5000x256 .f32) (x1 : Vec Ideal S256x64 .f32) (x2 : Vec Ideal S1x64 .f32)
    (p : Fin 5000) (q : Fin 64) (P : Fin 100000)
    (h0 : ∀ k : Fin 256, x0 (ix2 p k) = A0 (ix2 P k)) (h1 : ∀ y, x1 y = A1 y) (h2 : ∀ y, x2 y = A2 y) :
    k0_pay1 (F := Ideal) x0 x1 x2 (ix2 p q) = dense A0 A1 (fun n => A2 (ix2 (0 : Fin 1) n)) (ix2 P q) := by
  obtain rfl : x1 = A1 := funext h1
  obtain rfl : x2 = A2 := funext h2
  rw [lin1_at, dense_ix2]
  exact denseAt_rows A0 x0 x1 _ p P q h0

/-- The block indices of the four windows at grid point `t`: the features and the result move down one block of rows
    per point; the weights and the bias stay. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is its block of rows of the layer. -/
theorem flushed_eq (c : Dev nD) (t : Fin cfg0.N) :
    (dat0 V c).flushed 3 t = ((cfg0.win 3).blk t).view.read (Elt Ideal) (layer V c) := by
  show (cfg0.win 3).cut (grid0.coords t) ((dat0 V c).after 3 t) = _
  rw [after0_3]
  unfold out0_3
  rw [View.canon_unit_zero zero_offsets]
  simp only [View.ld_unit_zero (S := S5000x256) zero_offsets, View.ld_unit_zero (S := S256x64) zero_offsets,
    View.ld_unit_zero (S := S1x64) zero_offsets]
  obtain ⟨e00, e01, e10, e11, e20, e21, e30, e31⟩ := block_indices t
  have hN : cfg0.N = 20 := N_0
  have ht : t.val < 20 := hN ▸ t.isLt
  funext j
  obtain ⟨p, q, rfl⟩ : ∃ (p : Fin 5000) (q : Fin 64), j = ix2 p q := ⟨j 0, j 1, eq_ix2 j⟩
  have hemb : ((cfg0.win 3).blk t).view.emb (ix2 p q) = ix2 (⟨t.val * 5000 + p.val, by omega⟩ : Fin 100000) q := by
    funext a; apply Fin.ext
    match a with
    | ⟨0, _⟩ => show win0_3.index t (0 : Fin 2) * 5000 + 1 * p.val = t.val * 5000 + p.val; rw [e30]; omega
    | ⟨1, _⟩ => show win0_3.index t (1 : Fin 2) * 64 + 1 * q.val = q.val; rw [e31]; omega
  show k0_pay1 (F := Ideal) (iblk0 V c 0 t) (iblk0 V c 1 t) (iblk0 V c 2 t) (ix2 p q) = layer V c (((cfg0.win 3).blk t).view.emb (ix2 p q))
  rw [hemb]
  unfold layer
  refine stored_eq _ _ _ _ _ _ p q _ (fun k => ?_) (fun y => ?_) (fun y => ?_)
  · show V c main_arg0 (((cfg0.win 0).blk t).view.emb (ix2 p k)) = V c main_arg0 _
    refine congrArg _ (funext fun a => Fin.ext ?_)
    match a with
    | ⟨0, _⟩ => show win0_0.index t (0 : Fin 2) * 5000 + 1 * p.val = t.val * 5000 + p.val; rw [e00]; omega
    | ⟨1, _⟩ => show win0_0.index t (1 : Fin 2) * 256 + 1 * k.val = k.val; rw [e01]; omega
  · show V c main_arg1 (((cfg0.win 1).blk t).view.emb y) = V c main_arg1 y
    refine congrArg _ (funext fun a => Fin.ext ?_)
    match a with
    | ⟨0, _⟩ => show win0_1.index t (0 : Fin 2) * 256 + 1 * (y 0).val = (y 0).val; rw [e10]; omega
    | ⟨1, _⟩ => show win0_1.index t (1 : Fin 2) * 64 + 1 * (y 1).val = (y 1).val; rw [e11]; omega
  · show V c main_v0 (((cfg0.win 2).blk t).view.emb y) = V c main_v0 y
    refine congrArg _ (funext fun a => Fin.ext ?_)
    match a with
    | ⟨0, _⟩ => show win0_2.index t (0 : Fin 2) * 1 + 1 * (y 0).val = (y 0).val; rw [e20]; omega
    | ⟨1, _⟩ => show win0_2.index t (1 : Fin 2) * 64 + 1 * (y 1).val = (y 1).val; rw [e21]; omega

/-- An index of the result array is in point `t`'s block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v1).slice (win0_3.rect t)).set ↔ _
  rw [View.set_slice_whole, Rect.mem_set_unit]
  exact Iff.rfl

/-- Row `r` of the result is written by point `r / 5000`. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  obtain ⟨t, htv⟩ : ∃ t : Fin cfg0.N, t.val = (i 0).val / 5000 := ⟨⟨(i 0).val / 5000, by rw [hN]; omega⟩, rfl⟩
  obtain ⟨-, -, -, -, -, -, e30, e31⟩ := block_indices t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; rw [e30, htv]; omega
  | ⟨1, _⟩ => show win0_3.index t (1 : Fin 2) * 64 ≤ (i 1).val ∧ (i 1).val < win0_3.index t (1 : Fin 2) * 64 + 64; rw [e31]; omega

/-- The result array after the launch: the dense layer of the arrays it found. -/
theorem final (c : Dev nD) : (dat0 V c).arrAt 3 cfg0.N = layer V c :=
  (dat0 V c).arrAt_eq_of_cover 3 (layer V c) (fun t _ => flushed_eq V c t) (covered)

end Cert.KernelIdeal.Rows0

end
-- ==== Proof.RowBlocks1.lean ====
/-
  The second kernel's result array, whole.

  The second launch walks a grid of 20 points. At point `t` it reads rows `5000 t … 5000 t + 4999` of the aggregated
  features (all 64 columns), the whole weight column and the one bias entry, and writes the dense layer of that block of
  rows, clamped below at zero first, to rows `5000 t … 5000 t + 4999` of its result, a column. An entry depends on one
  row of the aggregated features only, so what each point writes is its block of rows of ONE array — the clamped dense
  layer of the whole array — and the 20 blocks of 5000 rows cover the 100000 rows.

  Everything is stated at the contents `V` the launch finds in its arrays, whatever they are.
-/
import proofs.«165099_j84378927497741_2_alg».proof.Proof.Gen.KernelIdeal.Frame
import proofs.«165099_j84378927497741_2_alg».proof.Proof.BodyValues
import Idealize.ShloMosaic.Lib.Pipeline.Value

noncomputable section

namespace Cert.KernelIdeal.Rows1

open Cert.KernelIdeal Cert.KernelIdeal.Gen Cert.KernelIdeal.Body Cert.DenseLayer
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The clamped dense layer of the arrays the launch finds: max(aggregated features, 0) · weights + bias. -/
def layer (c : Dev nD) : S100000x1.Idx → EReal :=
  denseClamp zeroF (V c main_v14 : S100000x64.Idx → EReal) (V c main_arg3 : S64x1.Idx → EReal)
    (fun n => (V c main_v15 : S1x1.Idx → EReal) (ix2 (0 : Fin 1) n))

/-- What a point stores at `(p, q)` of its block is the layer at `(P, q)`, when row `p` of the block it loaded is row
    `P` of the aggregated features and the other two blocks are the whole weight and bias arrays. -/
theorem stored_eq (A0 : S100000x64.Idx → EReal) (A1 : S64x1.Idx → EReal) (A2 : S1x1.Idx → EReal)
    (x0 : Vec Ideal S5000x64 .f32) (x1 : Vec Ideal S64x1 .f32) (x2 : Vec Ideal S1x1 .f32)
    (p : Fin 5000) (q : Fin 1) (P : Fin 100000)
    (h0 : ∀ k : Fin 64, x0 (ix2 p k) = A0 (ix2 P k)) (h1 : ∀ y, x1 y = A1 y) (h2 : ∀ y, x2 y = A2 y) :
    k1_pay1 (F := Ideal) x0 x1 x2 (ix2 p q) = denseClamp zeroF A0 A1 (fun n => A2 (ix2 (0 : Fin 1) n)) (ix2 P q) := by
  obtain rfl : x1 = A1 := funext h1
  obtain rfl : x2 = A2 := funext h2
  rw [lin2_at]
  unfold denseClamp
  rw [dense_ix2]
  exact denseAt_rows (fun i => max (A0 i) zeroF) (fun i => max (x0 i) zeroF) x1 _ p P q fun k => by
    show max (x0 (ix2 p k)) zeroF = max (A0 (ix2 P k)) zeroF
    rw [h0 k]

/-- The block indices of the four windows at grid point `t`: the aggregated features and the result move down one block
    of rows per point; the weights and the bias stay. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is its block of rows of the layer. -/
theorem flushed_eq (c : Dev nD) (t : Fin cfg1.N) :
    (dat1 V c).flushed 3 t = ((cfg1.win 3).blk t).view.read (Elt Ideal) (layer V c) := by
  show (cfg1.win 3).cut (grid1.coords t) ((dat1 V c).after 3 t) = _
  rw [after1_3]
  unfold out1_3
  rw [View.canon_unit_zero zero_offsets]
  simp only [View.ld_unit_zero (S := S5000x64) zero_offsets, View.ld_unit_zero (S := S64x1) zero_offsets,
    View.ld_unit_zero (S := S1x1) zero_offsets]
  obtain ⟨e00, e01, e10, e11, e20, e21, e30, e31⟩ := block_indices t
  have hN : cfg1.N = 20 := N_1
  have ht : t.val < 20 := hN ▸ t.isLt
  funext j
  obtain ⟨p, q, rfl⟩ : ∃ (p : Fin 5000) (q : Fin 1), j = ix2 p q := ⟨j 0, j 1, eq_ix2 j⟩
  have hemb : ((cfg1.win 3).blk t).view.emb (ix2 p q) = ix2 (⟨t.val * 5000 + p.val, by omega⟩ : Fin 100000) q := by
    funext a; apply Fin.ext
    match a with
    | ⟨0, _⟩ => show win1_3.index t (0 : Fin 2) * 5000 + 1 * p.val = t.val * 5000 + p.val; rw [e30]; omega
    | ⟨1, _⟩ => show win1_3.index t (1 : Fin 2) * 1 + 1 * q.val = q.val; rw [e31]; omega
  show k1_pay1 (F := Ideal) (iblk1 V c 0 t) (iblk1 V c 1 t) (iblk1 V c 2 t) (ix2 p q) = layer V c (((cfg1.win 3).blk t).view.emb (ix2 p q))
  rw [hemb]
  unfold layer
  refine stored_eq _ _ _ _ _ _ p q _ (fun k => ?_) (fun y => ?_) (fun y => ?_)
  · show V c main_v14 (((cfg1.win 0).blk t).view.emb (ix2 p k)) = V c main_v14 _
    refine congrArg _ (funext fun a => Fin.ext ?_)
    match a with
    | ⟨0, _⟩ => show win1_0.index t (0 : Fin 2) * 5000 + 1 * p.val = t.val * 5000 + p.val; rw [e00]; omega
    | ⟨1, _⟩ => show win1_0.index t (1 : Fin 2) * 64 + 1 * k.val = k.val; rw [e01]; omega
  · show V c main_arg3 (((cfg1.win 1).blk t).view.emb y) = V c main_arg3 y
    refine congrArg _ (funext fun a => Fin.ext ?_)
    match a with
    | ⟨0, _⟩ => show win1_1.index t (0 : Fin 2) * 64 + 1 * (y 0).val = (y 0).val; rw [e10]; omega
    | ⟨1, _⟩ => show win1_1.index t (1 : Fin 2) * 1 + 1 * (y 1).val = (y 1).val; rw [e11]; omega
  · show V c main_v15 (((cfg1.win 2).blk t).view.emb y) = V c main_v15 y
    refine congrArg _ (funext fun a => Fin.ext ?_)
    match a with
    | ⟨0, _⟩ => show win1_2.index t (0 : Fin 2) * 1 + 1 * (y 0).val = (y 0).val; rw [e20]; omega
    | ⟨1, _⟩ => show win1_2.index t (1 : Fin 2) * 1 + 1 * (y 1).val = (y 1).val; rw [e21]; omega

/-- An index of the result array is in point `t`'s block iff each coordinate is in the block's range on its axis. -/
theorem mem_blk (t : Fin cfg1.N) (i : S100000x1.Idx) :
    i ∈ ((cfg1.win 3).blk t).view.set ↔ ∀ a : Fin 2, win1_3.index t a * S5000x1.size a ≤ (i a).val ∧ (i a).val < win1_3.index t a * S5000x1.size a + S5000x1.size a := by
  show i ∈ ((View.whole main_v16).slice (win1_3.rect t)).set ↔ _
  rw [View.set_slice_whole, Rect.mem_set_unit]
  exact Iff.rfl

/-- Row `r` of the result is written by point `r / 5000`. -/
theorem covered (i : S100000x1.Idx) :
    ∃ t : Fin cfg1.N, (cfg1.win 3).flush t = true ∧ i ∈ ((cfg1.win 3).blk t).view.set := by
  have hi0 : (i 0).val < 100000 := (i 0).isLt
  have hi1 : (i 1).val < 1 := (i 1).isLt
  have hN : cfg1.N = 20 := N_1
  obtain ⟨t, htv⟩ : ∃ t : Fin cfg1.N, t.val = (i 0).val / 5000 := ⟨⟨(i 0).val / 5000, by rw [hN]; omega⟩, rfl⟩
  obtain ⟨-, -, -, -, -, -, e30, e31⟩ := block_indices t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; rw [e30, htv]; omega
  | ⟨1, _⟩ => show win1_3.index t (1 : Fin 2) * 1 ≤ (i 1).val ∧ (i 1).val < win1_3.index t (1 : Fin 2) * 1 + 1; rw [e31]; omega

/-- The result array after the launch: the clamped dense layer of the arrays it found. -/
theorem final (c : Dev nD) : (dat1 V c).arrAt 3 cfg1.N = layer V c :=
  (dat1 V c).arrAt_eq_of_cover 3 (layer V c) (fun t _ => flushed_eq V c t) (covered)

end Cert.KernelIdeal.Rows1

end
-- ==== Proof.Fold.lean ====
/-
  The kernel program's result, read back through its five stretches to the launch memory.

  With `A0 … A7` the eight argument arrays as launched (features, first weights, first bias, second weights, second
  bias, edge weights, edge sources, edge destinations):
    before the first launch the bias has been laid out as one row, nothing else has changed;
    the first launch leaves the dense layer `A0 · A1 + A2` in its result array (RowBlocks0) and changes no other array;
    the host then aggregates that array over the edges — `aggregate64`, the host operations as one function of the
    array they aggregate — and lays the second bias out as a `1 × 1` array;
    the second launch leaves the dense layer of the aggregate clamped below at zero, `max(·, 0) · A3 + A4` (RowBlocks1);
    the host aggregates that column over the edges and flattens it — `aggregate1`.
  No stretch writes an argument array, so each reads as launched wherever a later stretch uses it.
-/
import proofs.«165099_j84378927497741_2_alg».proof.Proof.Gen.KernelIdeal.Frame
import proofs.«165099_j84378927497741_2_alg».proof.Proof.RowBlocks0
import proofs.«165099_j84378927497741_2_alg».proof.Proof.RowBlocks1
import Idealize.ShloMosaic.Lib.StableHlo.Run
import Idealize.ShloMosaic.Lib.ValueLayout

noncomputable section

namespace Cert.KernelIdeal.Fold

open Cert.KernelIdeal Cert.KernelIdeal.Gen Cert.KernelIdeal.Body Cert.DenseLayer
open Idealize.ShloMosaic Idealize.ShloMosaic.TcCoe Idealize.SL.Sem Idealize.ShloMosaic.ValueIdx Idealize.ShloMosaic.StableHlo

section Aggregations

variable {F : FTy → Type} [FloatOps F]

/-- The host's aggregation of a 64-column array `L` over the edges: every edge adds its weight times its source's row
    of `L` to its destination's row of a zero array (a negative source index counts from the end). -/
def aggregate64 (L : (⟨S100000x64, .f32⟩ : BufTy).Contents (Elt F)) (x5 : (⟨S3200000, .f32⟩ : BufTy).Contents (Elt F))
    (x6 x7 : (⟨S3200000, .i32⟩ : BufTy).Contents (Elt F)) : (⟨S100000x64, .f32⟩ : BufTy).Contents (Elt F) :=
  Host.scatterAdd scatter_S100000x64_S3200000x1_S3200000x64_1_0_0_1
    (broadcastInDim S100000x64 ![] bcast_S_S100000x64 (constant S_ .f32 0x00000000#32))
    (broadcastInDim S3200000x1 ![0] bcast_S3200000_S3200000x1_0 x7)
    (mulf
      (broadcastInDim S3200000x64 ![0, 1] bcast_S3200000x1_S3200000x64_0_1
        (broadcastInDim S3200000x1 ![0] bcast_S3200000_S3200000x1_0 x5))
      (Host.gather gather_S100000x64_S3200000x1_S3200000x64_1_0_n_n_0_1_164 L
        (broadcastInDim S3200000x1 ![0] bcast_S3200000_S3200000x1_0
          (select
            (cmpi .slt x6 (broadcastInDim S3200000 ![] bcast_S_S3200000 (constantI S_ 32 0#32)))
            (addi x6 (broadcastInDim S3200000 ![] bcast_S_S3200000 (constantI S_ 32 100000#32)))
            x6))))

/-- The host's aggregation of a one-column array `Z` over the edges, flattened to a vector. -/
def aggregate1 (Z : (⟨S100000x1, .f32⟩ : BufTy).Contents (Elt F)) (x5 : (⟨S3200000, .f32⟩ : BufTy).Contents (Elt F))
    (x6 x7 : (⟨S3200000, .i32⟩ : BufTy).Contents (Elt F)) : (⟨S100000, .f32⟩ : BufTy).Contents (Elt F) :=
  shapeCast _
    (Host.scatterAdd scatter_S100000x1_S3200000x1_S3200000x1_1_0_0_1
      (broadcastInDim S100000x1 ![] bcast_S_S100000x1 (constant S_ .f32 0x00000000#32))
      (broadcastInDim S3200000x1 ![0] bcast_S3200000_S3200000x1_0 x7)
      (mulf (broadcastInDim S3200000x1 ![0] bcast_S3200000_S3200000x1_0 x5)
        (Host.gather gather_S100000x1_S3200000x1_S3200000x1_1_0_n_n_0_1_11 Z
          (broadcastInDim S3200000x1 ![0] bcast_S3200000_S3200000x1_0
            (select
              (cmpi .slt x6 (broadcastInDim S3200000 ![] bcast_S_S3200000 (constantI S_ 32 0#32)))
              (addi x6 (broadcastInDim S3200000 ![] bcast_S_S3200000 (constantI S_ 32 100000#32)))
              x6)))))
    shapeCasts_S100000x1_S100000

end Aggregations

variable (m : (ℓ : Loc nD τ sig) → Buf (Elt Ideal) ℓ) (ρ : Dev nD → PrngReg) (c : Dev nD)

/-! ## Before the first launch: the bias laid out as a row -/

theorem V1_arg0 : V1 m ρ c main_arg0 = m ((c : Thread nD τ).loc main_arg0) := by
  show StableHlo.after hostOps0 (W0 m ρ c) (Proc.devRef .tc main_arg0) = _
  dsimp only [hostOps0]
  after_results <;> rfl
theorem V1_arg1 : V1 m ρ c main_arg1 = m ((c : Thread nD τ).loc main_arg1) := by
  show StableHlo.after hostOps0 (W0 m ρ c) (Proc.devRef .tc main_arg1) = _
  dsimp only [hostOps0]
  after_results <;> rfl
theorem V1_v0 : (V1 m ρ c main_v0 : S1x64.Idx → EReal)
    = shapeCast S1x64 (m ((c : Thread nD τ).loc main_arg2) : S64.Idx → EReal) shapeCasts_S64_S1x64 := by
  show StableHlo.after hostOps0 (W0 m ρ c) (Proc.devRef .tc main_v0) = _
  dsimp only [hostOps0]
  after_results <;> rfl

/-- An argument array the first stretch does not touch, before the first launch. -/
theorem W1_arg3 : W1 m ρ c (Proc.devRef .tc main_arg3) = m ((c : Thread nD τ).loc main_arg3) := by
  show StableHlo.after hostOps0 (W0 m ρ c) (Proc.devRef .tc main_arg3) = _
  dsimp only [hostOps0]
  after_results <;> rfl
theorem W1_arg4 : W1 m ρ c (Proc.devRef .tc main_arg4) = m ((c : Thread nD τ).loc main_arg4) := by
  show StableHlo.after hostOps0 (W0 m ρ c) (Proc.devRef .tc main_arg4) = _
  dsimp only [hostOps0]
  after_results <;> rfl
theorem W1_arg5 : W1 m ρ c (Proc.devRef .tc main_arg5) = m ((c : Thread nD τ).loc main_arg5) := by
  show StableHlo.after hostOps0 (W0 m ρ c) (Proc.devRef .tc main_arg5) = _
  dsimp only [hostOps0]
  after_results <;> rfl
theorem W1_arg6 : W1 m ρ c (Proc.devRef .tc main_arg6) = m ((c : Thread nD τ).loc main_arg6) := by
  show StableHlo.after hostOps0 (W0 m ρ c) (Proc.devRef .tc main_arg6) = _
  dsimp only [hostOps0]
  after_results <;> rfl
theorem W1_arg7 : W1 m ρ c (Proc.devRef .tc main_arg7) = m ((c : Thread nD τ).loc main_arg7) := by
  show StableHlo.after hostOps0 (W0 m ρ c) (Proc.devRef .tc main_arg7) = _
  dsimp only [hostOps0]
  after_results <;> rfl

/-! ## After the first launch: the first dense layer; the other arrays as before -/

theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)

/-- The first launch's result array: the dense layer of the arguments as launched. -/
theorem W2_v1 : (W2 m ρ c (Proc.devRef .tc main_v1) : S100000x64.Idx → EReal)
    = dense (m ((c : Thread nD τ).loc main_arg0) : S100000x256.Idx → EReal) (m ((c : Thread nD τ).loc main_arg1) : S256x64.Idx → EReal)
        (fun n => (m ((c : Thread nD τ).loc main_arg2) : S64.Idx → EReal) (ix1 n)) := by
  refine (W2_arr m ρ c 3).trans ((Rows0.final (V1 m ρ) c).trans ?_)
  unfold Rows0.layer
  rw [V1_arg0, V1_arg1, V1_v0]
  refine congrArg (dense _ _) (funext fun n => ?_)
  exact shapeCast_a_1a_apply _ _ 0 n

/-! ## Before the second launch: the aggregate of the first layer; the second bias laid out as a `1 × 1` array -/

set_option maxHeartbeats 1000000 in
/-- The host's second stretch, read at the aggregate's buffer: `aggregate64` of what the stretch finds. -/
theorem V3_v14_found : V3 m ρ c main_v14
    = aggregate64 (W2 m ρ c (Proc.devRef .tc main_v1)) (W2 m ρ c (Proc.devRef .tc main_arg5))
        (W2 m ρ c (Proc.devRef .tc main_arg6)) (W2 m ρ c (Proc.devRef .tc main_arg7)) := by
  show StableHlo.after hostOps1 (W2 m ρ c) (Proc.devRef .tc main_v14) = _
  dsimp only [hostOps1]
  after_results <;> rfl

theorem V3_v14 : (V3 m ρ c main_v14 : S100000x64.Idx → EReal)
    = aggregate64 (dense (m ((c : Thread nD τ).loc main_arg0) : S100000x256.Idx → EReal) (m ((c : Thread nD τ).loc main_arg1) : S256x64.Idx → EReal)
        (fun n => (m ((c : Thread nD τ).loc main_arg2) : S64.Idx → EReal) (ix1 n)))
      (m ((c : Thread nD τ).loc main_arg5)) (m ((c : Thread nD τ).loc main_arg6)) (m ((c : Thread nD τ).loc main_arg7)) :=
  (V3_v14_found m ρ c).trans
    (congr (congr (congr (congrArg (aggregate64 (F := Ideal)) (W2_v1 m ρ c)) (W2_arg5 m ρ c)) (W2_arg6 m ρ c)) (W2_arg7 m ρ c))
theorem V3_arg3 : V3 m ρ c main_arg3 = m ((c : Thread nD τ).loc main_arg3) := by
  show StableHlo.after hostOps1 (W2 m ρ c) (Proc.devRef .tc main_arg3) = _
  dsimp only [hostOps1]
  after_results
  exact W2_arg3 m ρ c
theorem V3_v15 : (V3 m ρ c main_v15 : S1x1.Idx → EReal)
    = shapeCast S1x1 (m ((c : Thread nD τ).loc main_arg4) : S1.Idx → EReal) shapeCasts_S1_S1x1 := by
  show StableHlo.after hostOps1 (W2 m ρ c) (Proc.devRef .tc main_v15) = _
  dsimp only [hostOps1]
  after_results
  rw [W2_arg4]
  rfl
theorem W3_arg5 : W3 m ρ c (Proc.devRef .tc main_arg5) = m ((c : Thread nD τ).loc main_arg5) := by
  show StableHlo.after hostOps1 (W2 m ρ c) (Proc.devRef .tc main_arg5) = _
  dsimp only [hostOps1]
  after_results
  exact W2_arg5 m ρ c
theorem W3_arg6 : W3 m ρ c (Proc.devRef .tc main_arg6) = m ((c : Thread nD τ).loc main_arg6) := by
  show StableHlo.after hostOps1 (W2 m ρ c) (Proc.devRef .tc main_arg6) = _
  dsimp only [hostOps1]
  after_results
  exact W2_arg6 m ρ c
theorem W3_arg7 : W3 m ρ c (Proc.devRef .tc main_arg7) = m ((c : Thread nD τ).loc main_arg7) := by
  show StableHlo.after hostOps1 (W2 m ρ c) (Proc.devRef .tc main_arg7) = _
  dsimp only [hostOps1]
  after_results
  exact W2_arg7 m ρ c

/-! ## After the second launch: the clamped dense layer of the aggregate -/

theorem W4_arg5 : W4 m ρ c (Proc.devRef .tc main_arg5) = m ((c : Thread nD τ).loc main_arg5) :=
  (W4_of_ne m ρ c main_arg5 (by decide)).trans (W3_arg5 m ρ c)
theorem W4_arg6 : W4 m ρ c (Proc.devRef .tc main_arg6) = m ((c : Thread nD τ).loc main_arg6) :=
  (W4_of_ne m ρ c main_arg6 (by decide)).trans (W3_arg6 m ρ c)
theorem W4_arg7 : W4 m ρ c (Proc.devRef .tc main_arg7) = m ((c : Thread nD τ).loc main_arg7) :=
  (W4_of_ne m ρ c main_arg7 (by decide)).trans (W3_arg7 m ρ c)

/-- The second launch's result array. -/
theorem W4_v16 : (W4 m ρ c (Proc.devRef .tc main_v16) : S100000x1.Idx → EReal)
    = denseClamp zeroF
        (aggregate64 (dense (m ((c : Thread nD τ).loc main_arg0) : S100000x256.Idx → EReal) (m ((c : Thread nD τ).loc main_arg1) : S256x64.Idx → EReal)
            (fun n => (m ((c : Thread nD τ).loc main_arg2) : S64.Idx → EReal) (ix1 n)))
          (m ((c : Thread nD τ).loc main_arg5)) (m ((c : Thread nD τ).loc main_arg6)) (m ((c : Thread nD τ).loc main_arg7)))
        (m ((c : Thread nD τ).loc main_arg3) : S64x1.Idx → EReal)
        (fun n => (m ((c : Thread nD τ).loc main_arg4) : S1.Idx → EReal) (ix1 n)) := by
  refine (W4_arr m ρ c 3).trans ((Rows1.final (V3 m ρ) c).trans ?_)
  unfold Rows1.layer
  rw [V3_v14, V3_arg3, V3_v15]
  refine congrArg (denseClamp zeroF _ _) (funext fun n => ?_)
  exact shapeCast_a_1a_apply _ _ 0 n

/-! ## At the return -/

set_option maxHeartbeats 1000000 in
/-- The host's last stretch, read at the result's buffer: `aggregate1` of what the stretch finds. -/
theorem result_found : W5 m ρ c (Proc.devRef .tc main_v29)
    = aggregate1 (W4 m ρ c (Proc.devRef .tc main_v16)) (W4 m ρ c (Proc.devRef .tc main_arg5))
        (W4 m ρ c (Proc.devRef .tc main_arg6)) (W4 m ρ c (Proc.devRef .tc main_arg7)) := by
  show StableHlo.after hostOps2 (W4 m ρ c) (Proc.devRef .tc main_v29) = _
  dsimp only [hostOps2]
  after_results <;> rfl

/-- The result array at the end of the fold: the two layers and the two aggregations of the arguments as launched. -/
theorem result_eq : (W5 m ρ c (Proc.devRef .tc main_v29) : S100000.Idx → EReal)
    = aggregate1
        (denseClamp zeroF
          (aggregate64 (dense (m ((c : Thread nD τ).loc main_arg0) : S100000x256.Idx → EReal) (m ((c : Thread nD τ).loc main_arg1) : S256x64.Idx → EReal)
              (fun n => (m ((c : Thread nD τ).loc main_arg2) : S64.Idx → EReal) (ix1 n)))
            (m ((c : Thread nD τ).loc main_arg5)) (m ((c : Thread nD τ).loc main_arg6)) (m ((c : Thread nD τ).loc main_arg7)))
          (m ((c : Thread nD τ).loc main_arg3) : S64x1.Idx → EReal)
          (fun n => (m ((c : Thread nD τ).loc main_arg4) : S1.Idx → EReal) (ix1 n)))
        (m ((c : Thread nD τ).loc main_arg5)) (m ((c : Thread nD τ).loc main_arg6)) (m ((c : Thread nD τ).loc main_arg7)) :=
  (result_found m ρ c).trans
    (congr (congr (congr (congrArg (aggregate1 (F := Ideal)) (W4_v16 m ρ c)) (W4_arg5 m ρ c)) (W4_arg6 m ρ c)) (W4_arg7 m ρ c))

end Cert.KernelIdeal.Fold

end
-- ==== Proof.RefLayers.lean ====
/-
  The reference, stage by stage, as two dense layers and two aggregations over the edges.

  The reference computes, from node features `x0`, weights `x1`, `x3`, biases `x2`, `x4`, edge weights `x5`, edge
  sources `x6` and edge destinations `x7`:
    the first dense layer `x0 · x1 + x2`;
    its aggregation over the edges (each edge adds its weight times its source's row to its destination's row);
    the second dense layer of that, clamped below at zero first: `max(·, 0) · x3 + x4`;
    the aggregation of that column over the edges, flattened to a vector.
  The two aggregations are kept as functions of the array they aggregate: nothing here looks inside them.
-/
import proofs.«165099_j84378927497741_2_alg».proof.Proof.Gen.ReferenceIdeal.Read
import proofs.«165099_j84378927497741_2_alg».proof.Proof.LibDenseLayer

noncomputable section

open scoped BigOperators

namespace Cert.ReferenceIdeal.Layers

open Cert.ReferenceIdeal Cert.ReferenceIdeal.Gen Cert.ReferenceIdeal.Read Cert.DenseLayer Idealize.ShloMosaic Idealize.ShloMosaic.ValueIdx

variable {F : FTy → Type} [FloatOps F]

/-- The aggregation of a 64-column array over the edges, as a function of the array `L` it aggregates. -/
def aggregate64 (L : (⟨S100000x64, .f32⟩ : BufTy).Contents (Elt F)) (x5 : (⟨S3200000, .f32⟩ : BufTy).Contents (Elt F))
    (x6 x7 : (⟨S3200000, .i32⟩ : BufTy).Contents (Elt F)) : (⟨S100000x64, .f32⟩ : BufTy).Contents (Elt F) :=
  Host.scatterAdd scatter_S100000x64_S3200000x1_S3200000x64_1_0_0_1 (val_main_v14 (F := F)) (val_main_v15 (F := F) x7)
    (mulf (val_main_v12 (F := F) x5) (Host.gather gather_S100000x64_S3200000x1_S3200000x64_1_0_n_n_0_1_164 L (val_main_v10 (F := F) x6)))

/-- The aggregation of a one-column array over the edges, flattened, as a function of the column `Z` it aggregates. -/
def aggregate1 (Z : (⟨S100000x1, .f32⟩ : BufTy).Contents (Elt F)) (x5 : (⟨S3200000, .f32⟩ : BufTy).Contents (Elt F))
    (x6 x7 : (⟨S3200000, .i32⟩ : BufTy).Contents (Elt F)) : (⟨S100000, .f32⟩ : BufTy).Contents (Elt F) :=
  shapeCast _ (Host.scatterAdd scatter_S100000x1_S3200000x1_S3200000x1_1_0_0_1 (val_main_v31 (F := F)) (val_main_v32 (F := F) x7)
    (mulf (val_main_v22 (F := F) x5) (Host.gather gather_S100000x1_S3200000x1_S3200000x1_1_0_n_n_0_1_11 Z (val_main_v28 (F := F) x6))))
    shapeCasts_S100000x1_S100000

/-- The reference's first aggregation is `aggregate64` of its first layer. -/
theorem stage16_eq (x0 : (⟨S100000x256, .f32⟩ : BufTy).Contents (Elt F)) (x1 : (⟨S256x64, .f32⟩ : BufTy).Contents (Elt F))
    (x2 : (⟨S64, .f32⟩ : BufTy).Contents (Elt F)) (x5 : (⟨S3200000, .f32⟩ : BufTy).Contents (Elt F))
    (x6 x7 : (⟨S3200000, .i32⟩ : BufTy).Contents (Elt F)) :
    val_main_v16 (F := F) x0 x1 x2 x5 x6 x7 = aggregate64 (val_main_v3 (F := F) x0 x1 x2) x5 x6 x7 := rfl

/-- The reference's result is `aggregate1` of its second layer. -/
theorem stage34_eq (x0 : (⟨S100000x256, .f32⟩ : BufTy).Contents (Elt F)) (x1 : (⟨S256x64, .f32⟩ : BufTy).Contents (Elt F))
    (x2 : (⟨S64, .f32⟩ : BufTy).Contents (Elt F)) (x3 : (⟨S64x1, .f32⟩ : BufTy).Contents (Elt F)) (x4 : (⟨S1, .f32⟩ : BufTy).Contents (Elt F))
    (x5 : (⟨S3200000, .f32⟩ : BufTy).Contents (Elt F)) (x6 x7 : (⟨S3200000, .i32⟩ : BufTy).Contents (Elt F)) :
    val_main_v34 (F := F) x0 x1 x2 x3 x4 x5 x6 x7 = aggregate1 (val_main_v21 (F := F) x0 x1 x2 x3 x4 x5 x6 x7) x5 x6 x7 := rfl

/-- The first layer: the product of the features with the weights as a sum over the 256 shared coordinates, plus the
    bias vector broadcast down the rows. -/
theorem first_layer (x0 : (⟨S100000x256, .f32⟩ : BufTy).Contents (Elt Ideal)) (x1 : (⟨S256x64, .f32⟩ : BufTy).Contents (Elt Ideal))
    (x2 : (⟨S64, .f32⟩ : BufTy).Contents (Elt Ideal)) :
    val_main_v3 (F := Ideal) x0 x1 x2 = dense x0 x1 (fun n => x2 (ix1 n)) := by
  funext i
  obtain ⟨P, q, rfl⟩ : ∃ (P : Fin 100000) (q : Fin 64), i = ix2 P q := ⟨i 0, i 1, eq_ix2 i⟩
  rw [val_main_v3_apply, val_main_v0_apply, val_main_v2_apply, val_main_v1_apply, dense_ix2]
  unfold denseAt
  have el : ∀ k : Fin 256, lidx_main_v0 (ix2 P q) k = ix2 P k := fun k => funext fun a => Fin.ext (by
    match a with | ⟨0, _⟩ => rfl | ⟨1, _⟩ => rfl)
  have er : ∀ k : Fin 256, ridx_main_v0 (ix2 P q) k = ix2 k q := fun k => funext fun a => Fin.ext (by
    match a with | ⟨0, _⟩ => rfl | ⟨1, _⟩ => rfl)
  have eb : idx_main_v1 (idx_main_v2 (ix2 P q)) = ix1 q := funext fun a => Fin.ext (by
    match a with | ⟨0, _⟩ => rfl)
  simp only [el, er, eb, Ideal.addf_def]

/-- The second layer, of the first aggregation `S` clamped below at zero: a sum over the 64 shared coordinates, plus the
    one bias entry broadcast down the column. -/
theorem second_layer (x0 : (⟨S100000x256, .f32⟩ : BufTy).Contents (Elt Ideal)) (x1 : (⟨S256x64, .f32⟩ : BufTy).Contents (Elt Ideal))
    (x2 : (⟨S64, .f32⟩ : BufTy).Contents (Elt Ideal)) (x3 : (⟨S64x1, .f32⟩ : BufTy).Contents (Elt Ideal)) (x4 : (⟨S1, .f32⟩ : BufTy).Contents (Elt Ideal))
    (x5 : (⟨S3200000, .f32⟩ : BufTy).Contents (Elt Ideal)) (x6 x7 : (⟨S3200000, .i32⟩ : BufTy).Contents (Elt Ideal)) :
    val_main_v21 (F := Ideal) x0 x1 x2 x3 x4 x5 x6 x7
      = denseClamp (Ideal.ofBits .f32 0x00000000#32) (val_main_v16 (F := Ideal) x0 x1 x2 x5 x6 x7) x3 (fun n => x4 (ix1 n)) := by
  funext i
  obtain ⟨P, q, rfl⟩ : ∃ (P : Fin 100000) (q : Fin 1), i = ix2 P q := ⟨i 0, i 1, eq_ix2 i⟩
  have el : ∀ k : Fin 64, lidx_main_v18 (ix2 P q) k = ix2 P k := fun k => funext fun a => Fin.ext (by
    match a with | ⟨0, _⟩ => rfl | ⟨1, _⟩ => rfl)
  have er : ∀ k : Fin 64, ridx_main_v18 (ix2 P q) k = ix2 k q := fun k => funext fun a => Fin.ext (by
    match a with | ⟨0, _⟩ => rfl | ⟨1, _⟩ => rfl)
  have eb : idx_main_v19 (idx_main_v20 (ix2 P q)) = ix1 q := funext fun a => Fin.ext (by
    match a with | ⟨0, _⟩ => show 0 = q.val; have := q.isLt; omega)
  rw [val_main_v21_apply, val_main_v18_apply, val_main_v20_apply, val_main_v19_apply, eb, Ideal.addf_def]
  unfold denseClamp
  rw [dense_ix2]
  unfold denseAt
  refine congrArg (· + x4 (ix1 q)) (Finset.sum_congr rfl fun k _ => ?_)
  rw [el k, er k, val_main_v17_apply, val_main_call0_v0_apply, val_main_call0_cst_apply, Ideal.maximumf_def, Ideal.ofBits_def]

/-- The reference's result as the two layers and the two aggregations of its arguments. -/
theorem value (x0 : (⟨S100000x256, .f32⟩ : BufTy).Contents (Elt Ideal)) (x1 : (⟨S256x64, .f32⟩ : BufTy).Contents (Elt Ideal))
    (x2 : (⟨S64, .f32⟩ : BufTy).Contents (Elt Ideal)) (x3 : (⟨S64x1, .f32⟩ : BufTy).Contents (Elt Ideal)) (x4 : (⟨S1, .f32⟩ : BufTy).Contents (Elt Ideal))
    (x5 : (⟨S3200000, .f32⟩ : BufTy).Contents (Elt Ideal)) (x6 x7 : (⟨S3200000, .i32⟩ : BufTy).Contents (Elt Ideal)) :
    val_main_v34 (F := Ideal) x0 x1 x2 x3 x4 x5 x6 x7
      = aggregate1 (denseClamp (Ideal.ofBits .f32 0x00000000#32) (aggregate64 (dense x0 x1 (fun n => x2 (ix1 n))) x5 x6 x7) x3
          (fun n => x4 (ix1 n))) x5 x6 x7 := by
  rw [stage34_eq, second_layer, stage16_eq, first_layer]

end Cert.ReferenceIdeal.Layers

end
-- ==== Proof.lean ====
/-
  A two-layer graph convolution, tiled by rows on the accelerator, against its plain array program.

  Both programs compute, from node features `X : [100000, 256]`, weights `W1 : [256, 64]`, `W2 : [64, 1]`, biases
  `b1 : [64]`, `b2 : [1]` and 3200000 weighted edges (source, destination, weight):
      L = X · W1 + b1,   S = A(L),   Z = max(S, 0) · W2 + b2,   result = A(Z) flattened,
  where `A` adds, for every edge, its weight times its source's row to its destination's row of a zero array.

  The kernel program computes `L` and `Z` each in a launch over 20 blocks of 5000 rows, after rounding the operands of
  each product to a narrower float format, and runs `A` on the host between and after the launches; the reference
  runs everything on the host. On the extended reals a change of float format is the identity and a product
  accumulated into the zero matrix is the product, so each block a launch writes is its block of rows of the same dense
  layer the reference computes (an entry of a dense layer depends on one row of its input only), the blocks cover the
  array, and the two aggregations are the same host operations applied to equal arrays. No law of arithmetic beyond
  `0 + x = x` is used, so the precondition (finite inputs) is not needed for the equality.

  Modules: LibDenseLayer (the layer and its row-block property), BodyValues (what each kernel body stores, at an entry),
  RowBlocks0 / RowBlocks1 (each launch's result array, whole), WholeRun (the program's run with every buffer named),
  Fold (the result read back to the arguments), RefLayers (the reference's stages as the same layers).
-/
import proofs.«165099_j84378927497741_2_alg».proof.Defs
import proofs.«165099_j84378927497741_2_alg».proof.Proof.Gen.Kernel
import proofs.«165099_j84378927497741_2_alg».proof.Proof.Gen.Kernel.Skeleton
import proofs.«165099_j84378927497741_2_alg».proof.Proof.Gen.Kernel.Launch
import proofs.«165099_j84378927497741_2_alg».proof.Proof.Gen.Kernel.Points
import proofs.«165099_j84378927497741_2_alg».proof.Proof.Gen.Kernel.Frame
import proofs.«165099_j84378927497741_2_alg».proof.Proof.Gen.KernelIdeal
import proofs.«165099_j84378927497741_2_alg».proof.Proof.Gen.KernelIdeal.Skeleton
import proofs.«165099_j84378927497741_2_alg».proof.Proof.Gen.KernelIdeal.Launch
import proofs.«165099_j84378927497741_2_alg».proof.Proof.Gen.KernelIdeal.Points
import proofs.«165099_j84378927497741_2_alg».proof.Proof.Gen.KernelIdeal.Frame
import proofs.«165099_j84378927497741_2_alg».proof.Proof.Gen.ReferenceIdeal
import proofs.«165099_j84378927497741_2_alg».proof.Proof.Gen.ReferenceIdeal.Run
import proofs.«165099_j84378927497741_2_alg».proof.Proof.Gen.ReferenceIdeal.Read
import proofs.«165099_j84378927497741_2_alg».proof.Proof.Gen.Pre_finite_inputs
import proofs.«165099_j84378927497741_2_alg».proof.Proof.WholeRun
import proofs.«165099_j84378927497741_2_alg».proof.Proof.Fold
import proofs.«165099_j84378927497741_2_alg».proof.Proof.RefLayers
import Idealize.ShloMosaic.Adequacy
import Idealize.ShloMosaic.Init

noncomputable section

namespace Cert.Proof

open Idealize.ShloMosaic Idealize.ShloMosaic.TcCoe Idealize.SL.Sem

/-- The aggregation of a 64-column array over the edges is spelt by the same host operations in both programs. -/
theorem aggregate64_same (L : (⟨Cert.KernelIdeal.S100000x64, .f32⟩ : BufTy).Contents (Elt Ideal))
    (x5 : (⟨Cert.KernelIdeal.S3200000, .f32⟩ : BufTy).Contents (Elt Ideal))
    (x6 x7 : (⟨Cert.KernelIdeal.S3200000, .i32⟩ : BufTy).Contents (Elt Ideal)) :
    Cert.KernelIdeal.Fold.aggregate64 (F := Ideal) L x5 x6 x7 = Cert.ReferenceIdeal.Layers.aggregate64 (F := Ideal) L x5 x6 x7 := rfl

/-- So is the aggregation of a column, flattened. -/
theorem aggregate1_same (Z : (⟨Cert.KernelIdeal.S100000x1, .f32⟩ : BufTy).Contents (Elt Ideal))
    (x5 : (⟨Cert.KernelIdeal.S3200000, .f32⟩ : BufTy).Contents (Elt Ideal))
    (x6 x7 : (⟨Cert.KernelIdeal.S3200000, .i32⟩ : BufTy).Contents (Elt Ideal)) :
    Cert.KernelIdeal.Fold.aggregate1 (F := Ideal) Z x5 x6 x7 = Cert.ReferenceIdeal.Layers.aggregate1 (F := Ideal) Z x5 x6 x7 := rfl

/-- The kernel program as printed runs, and its arguments end unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs, and its arguments end unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories agreeing on the arguments, both programs end with the same result array:
    the two layers and the two aggregations of the arguments. -/
theorem algebraic : Cert.algebraic_KernelIdeal_ReferenceIdeal := by
  intro m ρ m' ρ' _ hagree
  refine ⟨fun c => Cert.KernelIdeal.Gen.W5 m ρ c (Proc.devRef .tc Cert.KernelIdeal.main_v29),
    Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v34_eq, Cert.ReferenceIdeal.Layers.value, a0, a1, a2, a3, a4, a5, a6, a7]
  refine Eq.trans ?_ (Cert.KernelIdeal.Fold.result_eq m ρ c).symm
  rw [aggregate1_same, aggregate64_same]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
